-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x4096.size a
  hwx0_2 : ∀ i : grid0.Coords, EltTy.bits .f32 = 32 ∨ (Rect.block (s := S4096x4096) S1024x2048.size (cc0_transform_2 i) (hinb0_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BlockSum.lean ====
/-
  Cutting a long sum into consecutive blocks.

  The contraction axis of the product has 4096 entries; the kernel walks it in 8 blocks of 512 and adds the
  blocks' partial sums one after the other. In a commutative monoid (the extended reals under addition are one:
  no finiteness is needed) the sum over all 4096 indices is the sum over the blocks of the sums inside each block,
  because every index `k` is `512 · s + kk` for exactly one block `s` and one place `kk` inside it.
-/
import Mathlib.Algebra.BigOperators.Fin
import Mathlib.Data.Fintype.BigOperators
import Mathlib.Logic.Equiv.Fin.Basic

namespace Cert.BlockSum

/-- A sum over `n * K` consecutive indices is the sum over `n` blocks of the sums over the `K` places of each block:
    the pair (block, place) ↦ `place + K · block` is a bijection onto the indices. -/
theorem sum_blocks {β : Type*} [AddCommMonoid β] (n K : ℕ) (g : Fin (n * K) → β) :
    ∑ k : Fin (n * K), g k = ∑ s : Fin n, ∑ kk : Fin K, g (finProdFinEquiv (s, kk)) := by
  rw [← Equiv.sum_comp finProdFinEquiv g, Fintype.sum_prod_type]

/-- The axis of length 4096 cut into 8 blocks of 512: index `512 · s + kk` is place `kk` of block `s`. -/
theorem sum_4096 {β : Type*} [AddCommMonoid β] (g : Fin 4096 → β) :
    ∑ k : Fin 4096, g k
      = ∑ s : Fin 8, ∑ kk : Fin 512, g ⟨512 * s.val + kk.val, by have := s.isLt; have := kk.isLt; omega⟩ := by
  refine (sum_blocks 8 512 g).trans ?_
  refine Finset.sum_congr rfl fun s _ => Finset.sum_congr rfl fun kk _ => congrArg g (Fin.ext ?_)
  show kk.val + 512 * s.val = 512 * s.val + kk.val
  omega

end Cert.BlockSum
-- ==== Proof.BlockStep.lean ====
/-
  One step of the blocked product, read at an entry.

  At a grid point the kernel body holds a 1024 × 512 block `a` of the left matrix, a 512 × 2048 block `b` of the right
  matrix and the 1024 × 2048 output block `acc` accumulated so far, and stores `acc + a · b`. On the extended reals the
  matrix unit is exact, so entry `(p, q)` of what is stored is

      acc (p, q) + ∑ kk < 512, a (p, kk) · b (kk, q).

  At the first point of a run the body first overwrites the output block with zeros: entry `(p, q)` of that is `0`.
-/
import proofs.«175426_j6502580486270_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Step

open Cert.KernelIdeal Cert.KernelIdeal.Gen Idealize.ShloMosaic

/-- The place `(p, kk)` of a left block that entry `j = (p, q)` of the output block reads at contraction place `kk`. -/
abbrev leftPlace (j : S1024x2048.Idx) (kk : Fin 512) : S1024x512.Idx := fun a => match a with
  | ⟨0, _⟩ => ⟨(j 0).val, (j 0).isLt⟩
  | ⟨1, _⟩ => ⟨kk.val, kk.isLt⟩

/-- The place `(kk, q)` of a right block that entry `j = (p, q)` of the output block reads at contraction place `kk`. -/
abbrev rightPlace (j : S1024x2048.Idx) (kk : Fin 512) : S512x2048.Idx := fun a => match a with
  | ⟨0, _⟩ => ⟨kk.val, kk.isLt⟩
  | ⟨1, _⟩ => ⟨(j 1).val, (j 1).isLt⟩

/-- The left operand's row is the output entry's row. -/
theorem left_row (j : S1024x2048.Idx) (q : dot_S1024x512_S512x2048_S1024x2048_1_0_0_1_n_n.contr.Idx) :
    (dot_S1024x512_S512x2048_S1024x2048_1_0_0_1_n_n.lhsIdx j q 0).val = (j 0).val := by
  unfold DotDims.lhsIdx
  rw [dif_neg (show ¬(0 : Fin S1024x512.rank) ∈ dot_S1024x512_S512x2048_S1024x2048_1_0_0_1_n_n.lhsBatch by decide),
    dif_pos (show (0 : Fin S1024x512.rank) ∈ dot_S1024x512_S512x2048_S1024x2048_1_0_0_1_n_n.lhsNonContracting by decide)]
  rfl

/-- The left operand's column is the contraction place. -/
theorem left_col (j : S1024x2048.Idx) (q : dot_S1024x512_S512x2048_S1024x2048_1_0_0_1_n_n.contr.Idx) :
    (dot_S1024x512_S512x2048_S1024x2048_1_0_0_1_n_n.lhsIdx j q 1).val = (q ⟨0, by decide⟩).val :=
  dot_S1024x512_S512x2048_S1024x2048_1_0_0_1_n_n.lhsIdx_val_of_single rfl j q

/-- The right operand's row is the contraction place. -/
theorem right_row (j : S1024x2048.Idx) (q : dot_S1024x512_S512x2048_S1024x2048_1_0_0_1_n_n.contr.Idx) :
    (dot_S1024x512_S512x2048_S1024x2048_1_0_0_1_n_n.rhsIdx j q 0).val = (q ⟨0, by decide⟩).val :=
  dot_S1024x512_S512x2048_S1024x2048_1_0_0_1_n_n.rhsIdx_val_of_single rfl j q

/-- The right operand's column is the output entry's column. -/
theorem right_col (j : S1024x2048.Idx) (q : dot_S1024x512_S512x2048_S1024x2048_1_0_0_1_n_n.contr.Idx) :
    (dot_S1024x512_S512x2048_S1024x2048_1_0_0_1_n_n.rhsIdx j q 1).val = (j 1).val := by
  unfold DotDims.rhsIdx
  rw [dif_neg (show ¬(1 : Fin S512x2048.rank) ∈ dot_S1024x512_S512x2048_S1024x2048_1_0_0_1_n_n.rhsBatch by decide),
    dif_pos (show (1 : Fin S512x2048.rank) ∈ dot_S1024x512_S512x2048_S1024x2048_1_0_0_1_n_n.rhsNonContracting by decide)]
  rfl

/-- The block of zeros the first point of a run stores: every entry is the extended real `0`. -/
theorem zero_block_apply (j : S1024x2048.Idx) : k0_pay1 (F := Ideal) j = 0 :=
  Ideal.ofBits_zero_f32

/-- The product of a left block `a` and a right block `b` at entry `j = (p, q)`: `∑ kk < 512, a (p, kk) · b (kk, q)`. -/
def blockProduct (a : Vec Ideal S1024x512 .bf16) (b : Vec Ideal S512x2048 .bf16) (j : S1024x2048.Idx) : EReal :=
  ∑ kk : Fin 512, a (leftPlace j kk) * b (rightPlace j kk)

/-- ONE STEP at an entry: what the body stores is the accumulated block's entry plus the blocks' product there. -/
theorem step_apply (acc : Vec Ideal S1024x2048 .f32) (a : Vec Ideal S1024x512 .bf16) (b : Vec Ideal S512x2048 .bf16)
    (j : S1024x2048.Idx) :
    k0_pay2 (F := Ideal) acc a b j = acc j + blockProduct a b j := by
  unfold k0_pay2 blockProduct
  simp only [shapeCast_self]
  show acc j + FloatOps.matmul (F := Ideal) dot_S1024x512_S512x2048_S1024x2048_1_0_0_1_n_n none a b (constant (F := Ideal) S1024x2048 .f32 0x00000000#32) j = _
  rw [Ideal.matmul_constant_zero_apply,
    ← Equiv.sum_comp (ValueIdx.contrEquiv1 dot_S1024x512_S512x2048_S1024x2048_1_0_0_1_n_n 512 rfl rfl).symm]
  refine congrArg (acc j + ·) (Finset.sum_congr rfl fun kk _ => ?_)
  have hk := ValueIdx.contrEquiv1_symm_val dot_S1024x512_S512x2048_S1024x2048_1_0_0_1_n_n 512 rfl rfl kk
  have el : dot_S1024x512_S512x2048_S1024x2048_1_0_0_1_n_n.lhsIdx j ((ValueIdx.contrEquiv1 dot_S1024x512_S512x2048_S1024x2048_1_0_0_1_n_n 512 rfl rfl).symm kk) = leftPlace j kk :=
    funext fun x => Fin.ext (by
      match x with
      | ⟨0, _⟩ => exact left_row _ _
      | ⟨1, _⟩ => exact (left_col _ _).trans hk)
  have er : dot_S1024x512_S512x2048_S1024x2048_1_0_0_1_n_n.rhsIdx j ((ValueIdx.contrEquiv1 dot_S1024x512_S512x2048_S1024x2048_1_0_0_1_n_n 512 rfl rfl).symm kk) = rightPlace j kk :=
    funext fun x => Fin.ext (by
      match x with
      | ⟨0, _⟩ => exact (right_row _ _).trans hk
      | ⟨1, _⟩ => exact right_col _ _)
  rw [el, er]

end Cert.KernelIdeal.Step

end
-- ==== Proof.BlockRead.lean ====
/-
  What the input blocks hold.

  Before the product the two arguments are converted to a 16-bit float format; on the extended reals a change of
  format is the identity, so the arrays the product reads are the arguments themselves.

  The grid has 4 × 2 × 8 points; point `t` has row tile `t / 16`, column tile `t / 8 % 2` and contraction block
  `t % 8`. At point `t` the left block is rows `1024 · (t / 16) …` and columns `512 · (t % 8) …` of `x`, the right
  block is rows `512 · (t % 8) …` and columns `2048 · (t / 8 % 2) …` of `y`: place `(p, kk)` of the left block is
  `x (1024 · (t / 16) + p, 512 · (t % 8) + kk)`, place `(kk, q)` of the right block is
  `y (512 · (t % 8) + kk, 2048 · (t / 8 % 2) + q)`.
-/
import proofs.«175426_j6502580486270_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The left array the product reads is the argument `x`: the change of float format is the identity. -/
theorem left_array (c : Dev nD) :
    (V m c main_v0 : S4096x4096.Idx → EReal) = m ((c : Thread nD τ).loc main_arg0) := by
  dsimp only [Gen.V, Gen.hostOps0]; after_results; rfl

/-- The right array the product reads is the argument `y`. -/
theorem right_array (c : Dev nD) :
    (V m c main_v1 : S4096x4096.Idx → EReal) = m ((c : Thread nD τ).loc main_arg1) := by
  dsimp only [Gen.V, Gen.hostOps0]; after_results; rfl

/-- Which blocks point `t` reads, decided over the 64 points: the left block's index is (row tile, contraction
    block), the right block's is (contraction block, column tile). -/
theorem idx_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2 :=
  (by decide +kernel : ∀ t : Fin grid0.N, _)

/-- Place `y` of the left block at point `t` is the entry of `x` whose row is `1024 · (t / 16)` plus the place's row
    and whose column is `512 · (t % 8)` plus the place's column. -/
theorem left_block_apply (c : Dev nD) (t : Fin cfg0.N) (y : S1024x512.Idx) (g : S4096x4096.Idx)
    (h0 : (g 0).val = t.val / 16 * 1024 + (y 0).val) (h1 : (g 1).val = t.val % 8 * 512 + (y 1).val) :
    (iblk m c 0 t : S1024x512.Idx → EReal) y = m ((c : Thread nD τ).loc main_arg0) g := by
  show (V m c main_v0 : S4096x4096.Idx → EReal) (((cfg0.win 0).blk t).view.emb y) = _
  rw [left_array]
  refine congrArg _ (funext fun a => Fin.ext ?_)
  obtain ⟨e0, e1, -, -⟩ := idx_facts t
  match a with
  | ⟨0, _⟩ =>
    show win0_0.index t (0 : Fin 2) * 1024 + 1 * (y 0).val = (g 0).val
    rw [e0, h0]; omega
  | ⟨1, _⟩ =>
    show win0_0.index t (1 : Fin 2) * 512 + 1 * (y 1).val = (g 1).val
    rw [e1, h1]; omega

/-- Place `y` of the right block at point `t` is the entry of `y` whose row is `512 · (t % 8)` plus the place's row
    and whose column is `2048 · (t / 8 % 2)` plus the place's column. -/
theorem right_block_apply (c : Dev nD) (t : Fin cfg0.N) (y : S512x2048.Idx) (g : S4096x4096.Idx)
    (h0 : (g 0).val = t.val % 8 * 512 + (y 0).val) (h1 : (g 1).val = t.val / 8 % 2 * 2048 + (y 1).val) :
    (iblk m c 1 t : S512x2048.Idx → EReal) y = m ((c : Thread nD τ).loc main_arg1) g := by
  show (V m c main_v1 : S4096x4096.Idx → EReal) (((cfg0.win 1).blk t).view.emb y) = _
  rw [right_array]
  refine congrArg _ (funext fun a => Fin.ext ?_)
  obtain ⟨-, -, e0, e1⟩ := idx_facts t
  match a with
  | ⟨0, _⟩ =>
    show win0_1.index t (0 : Fin 2) * 512 + 1 * (y 0).val = (g 0).val
    rw [e0, h0]; omega
  | ⟨1, _⟩ =>
    show win0_1.index t (1 : Fin 2) * 2048 + 1 * (y 1).val = (g 1).val
    rw [e1, h1]; omega

end Cert.KernelIdeal.Blocks

end
-- ==== Proof.Fold.lean ====
/-
  The kernel's result at an entry is the whole product's entry.

  Output entry `i = (r, c)` lies in the output block of row tile `r / 1024` and column tile `c / 2048`; the 8 grid
  points that visit this block form one run. The run's first point stores `0 + a₀ · b₀`, every later point adds its own
  `aₛ · bₛ` to what the point before left, and the last point's block is what the array ends holding. So the entry is

      0 + ∑ s < 8, ∑ kk < 512, x (r, 512 · s + kk) · y (512 · s + kk, c),

  and, the extended reals being a commutative monoid under addition, this is `∑ k < 4096, x (r, k) · y (k, c)`: the
  regrouping of one sum into 8 consecutive blocks needs no finiteness of the entries.
-/
import proofs.«175426_j6502580486270_2_alg».proof.Proof.Gen.KernelIdeal.Value
import proofs.«175426_j6502580486270_2_alg».proof.Proof.BlockSum
import proofs.«175426_j6502580486270_2_alg».proof.Proof.BlockStep
import proofs.«175426_j6502580486270_2_alg».proof.Proof.BlockRead

noncomputable section

namespace Cert.KernelIdeal.Fold

open Cert.KernelIdeal Cert.KernelIdeal.Gen Cert.KernelIdeal.Value Cert.KernelIdeal.Step Cert.KernelIdeal.Blocks
open Idealize.ShloMosaic Idealize.ShloMosaic.TcCoe Idealize.SL.Sem

/-! ## The product and its cut into contraction blocks -/

/-- The entry `(r, k)` of the left matrix that output entry `i = (r, c)` meets at contraction index `k`. -/
abbrev leftEntry (i : S4096x4096.Idx) (k : Fin 4096) : S4096x4096.Idx := fun a => match a with
  | ⟨0, _⟩ => ⟨(i 0).val, (i 0).isLt⟩
  | ⟨1, _⟩ => ⟨k.val, k.isLt⟩

/-- The entry `(k, c)` of the right matrix that output entry `i = (r, c)` meets at contraction index `k`. -/
abbrev rightEntry (i : S4096x4096.Idx) (k : Fin 4096) : S4096x4096.Idx := fun a => match a with
  | ⟨0, _⟩ => ⟨k.val, k.isLt⟩
  | ⟨1, _⟩ => ⟨(i 1).val, (i 1).isLt⟩

/-- THE PRODUCT at entry `i = (r, c)`: `∑ k < 4096, x (r, k) · y (k, c)`. -/
def matProduct (x y : S4096x4096.Idx → EReal) (i : S4096x4096.Idx) : EReal :=
  ∑ k : Fin 4096, x (leftEntry i k) * y (rightEntry i k)

/-- The part of that sum over contraction block `s`: `∑ kk < 512, x (r, 512 · s + kk) · y (512 · s + kk, c)`. -/
def blockPart (x y : S4096x4096.Idx → EReal) (i : S4096x4096.Idx) (s : Fin 8) : EReal :=
  ∑ kk : Fin 512,
    x (leftEntry i ⟨512 * s.val + kk.val, by have := s.isLt; have := kk.isLt; omega⟩)
    * y (rightEntry i ⟨512 * s.val + kk.val, by have := s.isLt; have := kk.isLt; omega⟩)

/-- The product's entry is the sum of its 8 block parts (regrouping a sum in a commutative monoid). -/
theorem matProduct_eq_blocks (x y : S4096x4096.Idx → EReal) (i : S4096x4096.Idx) :
    matProduct x y i = ∑ s : Fin 8, blockPart x y i s :=
  BlockSum.sum_4096 fun k => x (leftEntry i k) * y (rightEntry i k)

/-! ## The run's fold -/

variable (m : (ℓ : Loc nD τ sig) → Buf (Elt Ideal) ℓ)

/-- WHAT POINT `n` ADDS at place `j` of its output block: the product of its left and right blocks there (a function
    of every natural number; past the grid it is `0` and never used). -/
def addend (c : Dev nD) (n : ℕ) (j : S1024x2048.Idx) : EReal :=
  if h : n < cfg0.N then blockProduct (iblk m c 0 ⟨n, h⟩) (iblk m c 1 ⟨n, h⟩) j else 0

/-- The first point of a run leaves `0` plus its own addend: it adds into the block of zeros it has just stored. -/
theorem reset_apply (c : Dev nD) (n : ℕ) (h : n < cfg0.N) (j : S1024x2048.Idx) :
    reset2 m c n h j = 0 + addend m c n j := by
  unfold reset2 addend
  rw [dif_pos h]
  exact (step_apply (k0_pay1 (F := Ideal)) (iblk m c 0 ⟨n, h⟩) (iblk m c 1 ⟨n, h⟩) j).trans
    (congrArg (· + blockProduct (iblk m c 0 ⟨n, h⟩) (iblk m c 1 ⟨n, h⟩) j) (zero_block_apply j))

/-- Every later point adds its own addend to what the point before left. -/
theorem later_apply (c : Dev nD) (n : ℕ) (h : n < cfg0.N) (acc : Vec Ideal S1024x2048 .f32) (j : S1024x2048.Idx) :
    step2 m c n h acc j = acc j + addend m c n j := by
  unfold step2 addend
  rw [dif_pos h]
  exact step_apply acc (iblk m c 0 ⟨n, h⟩) (iblk m c 1 ⟨n, h⟩) j

/-- THE RUN'S FOLD at a place: `0` plus the addends of the run's 8 points. -/
theorem fold_apply (c : Dev nD) (b : ℕ) (h : b + 7 < cfg0.N) (j : S1024x2048.Idx) :
    Pipeline.accAt (reset2 m c) (step2 m c) b 7 h j = 0 + ∑ s ∈ Finset.range 8, addend m c (b + s) j :=
  Pipeline.accAt_add_apply (ι := S1024x2048.Idx) (β := EReal) (reset2 m c) (step2 m c) (fun _ => 0) (addend m c) b 7
    (fun h j => reset_apply m c b h j) (fun n h acc j _ _ => later_apply m c n h acc j) 7 le_rfl h j

/-- The addend of the run's point `s`, at the place of output entry `i` inside its block, is the product's part over
    contraction block `s`: the blocks that point reads are rows `i`'s row tile and columns `512 · s …` of `x`, rows
    `512 · s …` and columns `i`'s column tile of `y`. -/
theorem addend_apply (c : Dev nD) (i : S4096x4096.Idx) (s : Fin 8) :
    addend m c (8 * run2Of i + s.val) (loc2Of i)
      = blockPart (m ((c : Thread nD τ).loc main_arg0)) (m ((c : Thread nD τ).loc main_arg1)) i s := by
  have hi0 : (i 0).val < 4096 := (i 0).isLt
  have hi1 : (i 1).val < 4096 := (i 1).isLt
  have hs : s.val < 8 := s.isLt
  have hN : cfg0.N = 64 := N_0
  have hr : run2Of i = 2 * ((i 0).val / 1024) + (i 1).val / 2048 := by
    show 2 * ((i 0).val / 1024 - 0) + 1 * ((i 1).val / 2048 - 0) = _
    omega
  have ht : 8 * run2Of i + s.val < cfg0.N := by rw [hN, hr]; omega
  unfold addend blockPart blockProduct
  rw [dif_pos ht]
  refine Finset.sum_congr rfl fun kk _ => ?_
  have hkk : kk.val < 512 := kk.isLt
  exact congrArg₂ (· * ·)
    (left_block_apply m c ⟨8 * run2Of i + s.val, ht⟩ (leftPlace (loc2Of i) kk)
      (leftEntry i ⟨512 * s.val + kk.val, by omega⟩)
      (by show (i 0).val = (8 * run2Of i + s.val) / 16 * 1024 + (i 0).val % 1024; rw [hr]; omega)
      (by show 512 * s.val + kk.val = (8 * run2Of i + s.val) % 8 * 512 + kk.val; omega))
    (right_block_apply m c ⟨8 * run2Of i + s.val, ht⟩ (rightPlace (loc2Of i) kk)
      (rightEntry i ⟨512 * s.val + kk.val, by omega⟩)
      (by show 512 * s.val + kk.val = (8 * run2Of i + s.val) % 8 * 512 + kk.val; omega)
      (by show (i 1).val = (8 * run2Of i + s.val) / 8 % 2 * 2048 + (i 1).val % 2048; rw [hr]; omega))

/-- THE KERNEL'S RESULT at entry `i = (r, c)` is the product's entry `∑ k < 4096, x (r, k) · y (k, c)`. -/
theorem product_apply (c : Dev nD) (i : S4096x4096.Idx) :
    G2 m c i = matProduct (m ((c : Thread nD τ).loc main_arg0)) (m ((c : Thread nD τ).loc main_arg1)) i := by
  have hi0 : (i 0).val < 4096 := (i 0).isLt
  have hi1 : (i 1).val < 4096 := (i 1).isLt
  have hN : cfg0.N = 64 := N_0
  have hr : run2Of i = 2 * ((i 0).val / 1024) + (i 1).val / 2048 := by
    show 2 * ((i 0).val / 1024 - 0) + 1 * ((i 1).val / 2048 - 0) = _
    omega
  have h7 : 8 * run2Of i + 7 < cfg0.N := by rw [hN, hr]; omega
  have key : (0 : EReal) + ∑ s ∈ Finset.range 8, addend m c (8 * run2Of i + s) (loc2Of i)
      = matProduct (m ((c : Thread nD τ).loc main_arg0)) (m ((c : Thread nD τ).loc main_arg1)) i := by
    rw [zero_add, ← Fin.sum_univ_eq_sum_range (fun s => addend m c (8 * run2Of i + s) (loc2Of i)) 8,
      matProduct_eq_blocks]
    exact Finset.sum_congr rfl fun s _ => addend_apply m c i s
  unfold G2
  rw [dif_pos h7]
  exact (fold_apply m c _ h7 (loc2Of i)).trans key

end Cert.KernelIdeal.Fold

end
-- ==== Proof.lean ====
/-
  A tiled matrix product against one whole matrix product, over the extended reals.

  The kernel computes `x · y` for two 4096 × 4096 matrices tile by tile: the output is cut into 4 × 2 blocks of
  1024 × 2048 entries and the contraction axis into 8 blocks of 512; for each output block the kernel starts from zeros
  and adds, one contraction block after the other, the product of a 1024 × 512 block of `x` with a 512 × 2048 block of
  `y`. The reference is the single product `jnp.matmul x y`. The kernel first converts both arguments to a 16-bit float
  format, which on the extended reals is the identity.

  Index by index both sides are the same sum: the reference's entry `(r, c)` is `∑ k < 4096, x (r, k) · y (k, c)`, and the
  kernel's is `0 + ∑ s < 8, ∑ kk < 512, x (r, 512 · s + kk) · y (512 · s + kk, c)`. Addition of extended reals is
  commutative and associative with neutral element `0`, so cutting the sum into 8 consecutive blocks changes nothing,
  whatever the entries are: the proof never uses that the inputs are finite.

  Proof/BlockSum.lean is the regrouping of the sum, Proof/BlockStep.lean one step of the kernel at an entry,
  Proof/BlockRead.lean which entries of `x` and `y` a block holds, Proof/Fold.lean the kernel's entry as the whole sum.
  The idealization changes nothing in the kernel's text that needs a proof (its list of rewrites is empty).
-/
import proofs.«175426_j6502580486270_2_alg».proof.Defs
import proofs.«175426_j6502580486270_2_alg».proof.Proof.Gen.Kernel.Frame
import proofs.«175426_j6502580486270_2_alg».proof.Proof.Gen.KernelIdeal.Value
import proofs.«175426_j6502580486270_2_alg».proof.Proof.Gen.Pre_finite_inputs
import proofs.«175426_j6502580486270_2_alg».proof.Proof.Gen.ReferenceIdeal.Read
import proofs.«175426_j6502580486270_2_alg».proof.Proof.Fold
import Idealize.ShloMosaic.Adequacy
import Idealize.ShloMosaic.Init

noncomputable section

namespace Cert.Proof

open Idealize.ShloMosaic Idealize.SL.Sem

/-- The idealized kernel terminates without a fault and leaves its arguments as they were: its run with the result's
    value dropped. -/
theorem frame_ideal : frame_KernelIdeal := fun m ρ _ =>
  (θ_run Cert.KernelIdeal.defs _ _).mono (fun _ h c => (h c).2) (Cert.KernelIdeal.Value.run (F := Ideal) m ρ)

/-- The same for the reference. -/
theorem frame_reference : frame_ReferenceIdeal := fun m ρ _ =>
  (θ_run Cert.ReferenceIdeal.defs _ _).mono (fun _ h c => (h c).2) (Cert.ReferenceIdeal.Value.run (F := Ideal) m ρ)

/-- Run from memories that agree on `x` and `y`, the two programs end with equal result arrays: at every entry
    `(r, c)` the reference's single product and the kernel's fold over 8 contraction blocks are both
    `∑ k < 4096, x (r, k) · y (k, c)`. -/
theorem algebraic : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  exact (Cert.ReferenceIdeal.Read.val_main_v0_apply _ _ i).trans (Cert.KernelIdeal.Fold.product_apply m c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_ideal, frame_reference, (trivial : preserves_Kernel_KernelIdeal), algebraic⟩

end Cert.Proof

end
